-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel

variable [Facts]

def fn {F : FTy → Type} [FloatOps F] (main_arg0 : FVec F S4x2048x4096 .f32) (main_arg1 : IVec S4096x4096 32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  main_v3
-- ==== Kernel.lean ====
abbrev S4x2048x4096 : Shape := ⟨3, ![4, 2048, 4096]⟩
abbrev S4096x4096 : Shape := ⟨2, ![4096, 4096]⟩
abbrev S8192x4096 : Shape := ⟨2, ![8192, 4096]⟩
abbrev S_ : Shape := ⟨0, ![]⟩
abbrev S1024x512 : Shape := ⟨2, ![1024, 512]⟩
abbrev S1024x1024 : Shape := ⟨2, ![1024, 1024]⟩

abbrev nBuf : Space → Nat
  | .hbm => 11
  | .vmem => 7
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S8192x4096, .f32⟩
  | .hbm, ⟨3, _⟩ => ⟨S8192x4096, .bf16⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S4096x4096, .bf16⟩
  | .hbm, ⟨9, _⟩ => ⟨S8192x4096, .f32⟩
  | .hbm, ⟨10, _⟩ => ⟨S4x2048x4096, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  shapeCasts_S4x2048x4096_S8192x4096 : S4x2048x4096.ShapeCasts S8192x4096
  bitsLt_bf16_f32 : FTy.bits .bf16 < FTy.bits .f32
  bcast_S_S4096x4096 : S_.BroadcastsInDim S4096x4096 (![] : Fin 0 → Fin S4096x4096.rank)
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  shapeCasts_S8192x4096_S4x2048x4096 : S8192x4096.ShapeCasts S4x2048x4096
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x4096.size a
  hwx0_0 : ∀ i : grid0.Coords, EltTy.bits .bf16 = 32 ∨ (Rect.block (s := S8192x4096) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .bf16 = 32 ∨ (Rect.block (s := S4096x4096) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x4096.size a
  hwx0_2 : ∀ i : grid0.Coords, EltTy.bits .f32 = 32 ∨ (Rect.block (s := S8192x4096) S1024x1024.size (cc0_transform_2 i) (hinb0_2 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_v1) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S4096x4096, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.Spec.lean ====
/-
  The arithmetic both programs compute, with no program in sight.

  Row `r` of the activation matrix `X` (8192 rows) against row `c` of the weight matrix `W` (4096 rows), both of
  4096 columns: the result entry is the sum of the 4096 products `X r K * W c K`. The kernel adds them up in eight
  blocks of 512 consecutive `K`, the reference in one sum. Over the extended reals addition is associative and
  commutative with unit zero, so a sum over `range (n + m)` splits into the sum over `range n` and the next `m`
  terms — no term need be finite.
-/
import Idealize.ShloMosaic.PureOps.Ideal
import Idealize.ShloMosaic.Lib.ValueIdx

noncomputable section

namespace Cert.Spec

open Idealize.ShloMosaic Idealize.ShloMosaic.ValueIdx
open scoped BigOperators

/-- Indices of the activation matrix: 8192 rows (batch times sequence) of 4096 input features. -/
abbrev XIdx := (⟨2, ![8192, 4096]⟩ : Shape).Idx
/-- Indices of the weight matrix: 4096 output features, each a row of 4096 input features. -/
abbrev WIdx := (⟨2, ![4096, 4096]⟩ : Shape).Idx

variable (X : XIdx → EReal) (W : WIdx → EReal) (r : Fin 8192) (c : Fin 4096)

/-- The `K`-th product of row `r` of `X` with row `c` of `W`; zero beyond the contraction length. -/
def term (K : ℕ) : EReal := if h : K < 4096 then X (ix2 r ⟨K, h⟩) * W (ix2 c ⟨K, h⟩) else 0

/-- The sum of the first `n` products. -/
def partialDot (n : ℕ) : EReal := ∑ K ∈ Finset.range n, term X W r c K

/-- No product summed yet: zero. -/
theorem partialDot_zero : partialDot X W r c 0 = 0 := Finset.sum_range_zero _

/-- The first `512 (k + 1)` products are the first `512 k` and then contraction block `k`'s 512. -/
theorem partialDot_step (k : ℕ) :
    partialDot X W r c ((k + 1) * 512)
      = partialDot X W r c (k * 512) + ∑ kk : Fin 512, term X W r c (k * 512 + kk.val) := by
  unfold partialDot
  rw [show (k + 1) * 512 = k * 512 + 512 by ring, Finset.sum_range_add]
  exact congrArg _ (Finset.sum_range fun x => term X W r c (k * 512 + x))

/-- Entry (r, c) of the product of `X` with the transpose of `W`: the whole contraction, as one sum. -/
def dot : EReal := ∑ K : Fin 4096, X (ix2 r K) * W (ix2 c K)

/-- All 4096 products summed are that entry. -/
theorem partialDot_full : partialDot X W r c 4096 = dot X W r c := by
  unfold partialDot dot
  rw [Finset.sum_range]
  exact Finset.sum_congr rfl fun K _ => by unfold term; rw [dif_pos K.isLt]

/-- A product inside the contraction length is the plain product. -/
theorem term_of_lt (K : ℕ) (h : K < 4096) : term X W r c K = X (ix2 r ⟨K, h⟩) * W (ix2 c ⟨K, h⟩) := dif_pos h

end Cert.Spec

end
-- ==== Proof.Body.lean ====
/-
  What one run of the kernel body leaves behind, as values.

  The body keeps a 1024x1024 accumulator across the eight contraction steps of an output tile. At the first step it
  stores the zero tile and adds the step's product of the two loaded 1024x512 tiles; at a middle step it adds the
  product to what the step before left; at the last step it does the same and copies the accumulator into the
  output tile. Each store covers its whole buffer, so what a buffer holds after the body is the last store's value.
-/
import proofs.«163409_j52106543235554_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Body

open Cert.KernelIdeal Cert.KernelIdeal.Gen

variable {F : FTy → Type} [FloatOps F]

theorem hz : (![0, 0] : Fin 2 → Nat) = fun _ => 0 := funext fun a => by fin_cases a <;> rfl

/-- A middle step leaves in the accumulator what it found plus the step's product. -/
theorem acc_B (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : ¬cond0_1 i)
    (x0 : Vec F S1024x512 .bf16) (x1 : Vec F S1024x512 .bf16) (xs0 : Vec F S1024x1024 .f32) :
    sout0_B_0 c i arg3 harg3 arg4 harg4 arg5 harg5 arg6 harg6 hc0 hc1 x0 x1 xs0 = k0_pay2 xs0 x0 x1 := by
  unfold sout0_B_0
  rw [View.read_writes_eq_canon _ _ _ (scover0_B_0 c i arg3 harg3 arg4 harg4 arg5 harg5 arg6 harg6 hc0 hc1 x0 x1 xs0)]
  unfold kernelRun0_B
  dsimp only
  rw [View.canon_unit_zero hz]
  simp only [View.readAt_eq_ld, harg3.read_unread, harg4.read_unread, harg6.read_unread,
    View.ld_unit_zero (S := S1024x512) hz, View.ld_unit_zero (S := S1024x1024) hz]

/-- The last step leaves the same in the accumulator, -/
theorem acc_C (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : cond0_1 i)
    (x0 : Vec F S1024x512 .bf16) (x1 : Vec F S1024x512 .bf16) (xs0 : Vec F S1024x1024 .f32) :
    sout0_C_0 c i arg3 harg3 arg4 harg4 arg5 harg5 arg6 harg6 hc0 hc1 x0 x1 xs0 = k0_pay2 xs0 x0 x1 := by
  unfold sout0_C_0
  rw [View.read_writes_eq_canon _ _ _ (scover0_C_0 c i arg3 harg3 arg4 harg4 arg5 harg5 arg6 harg6 hc0 hc1 x0 x1 xs0)]
  unfold kernelRun0_C
  dsimp only
  sl_unfold_words
  rw [View.canon_unit_zero hz]
  simp only [View.readAt_eq_ld, harg3.read_unread, harg4.read_unread, harg6.read_unread,
    View.ld_unit_zero (S := S1024x512) hz, View.ld_unit_zero (S := S1024x1024) hz]

/-- and copies it into the output tile. -/
theorem out_C (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : cond0_1 i)
    (x0 : Vec F S1024x512 .bf16) (x1 : Vec F S1024x512 .bf16) (xs0 : Vec F S1024x1024 .f32) :
    out0_C_2 c i arg3 harg3 arg4 harg4 arg5 harg5 arg6 harg6 hc0 hc1 x0 x1 xs0 = k0_pay2 xs0 x0 x1 := by
  unfold out0_C_2
  rw [View.read_writes_eq_canon _ _ _ (cover0_C_2 c i arg3 harg3 arg4 harg4 arg5 harg5 arg6 harg6 hc0 hc1 x0 x1 xs0)]
  unfold kernelRun0_C
  dsimp only
  sl_unfold_words
  rw [View.canon_unit_zero hz, View.readCov_unit_zero (S := S1024x1024) _ hz]
  simp only [View.readAt_eq_ld, harg3.read_unread, harg4.read_unread, harg6.read_unread,
    View.ld_unit_zero (S := S1024x512) hz, View.ld_unit_zero (S := S1024x1024) hz]

/-- The first step stores the zero tile, reads it back, and leaves it plus the step's product. -/
theorem acc_A (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1024x1024 .f32) (harg6 : arg6.IsWhole) (hc0 : cond0_0 i) (hc1 : ¬cond0_1 i)
    (x0 : Vec F S1024x512 .bf16) (x1 : Vec F S1024x512 .bf16) :
    sout0_A_0 c i arg3 harg3 arg4 harg4 arg5 harg5 arg6 harg6 hc0 hc1 x0 x1 = k0_pay2 k0_pay1 x0 x1 := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  rw [View.canon_cons_unit_zero (S := S1024x1024) hz, View.readCov_unit_zero (S := S1024x1024) _ hz]
  simp only [View.readAt_eq_ld, harg3.read_unread, harg4.read_unread, harg6.read_unread,
    View.ld_unit_zero (S := S1024x512) hz, View.ld_unit_zero (S := S1024x1024) hz]

end Cert.KernelIdeal.Body

end
-- ==== Proof.Payload.lean ====
/-
  The body's two stored values read at one entry, over the extended reals.

  The first is the zero tile. The second is the accumulator tile it was handed plus the product of the two loaded
  tiles: entry (p, q) of the product of a 1024x512 tile `a` with a 1024x512 tile `b`, contracted along the columns of
  both, is the sum over the 512 columns `kk` of `a p kk * b q kk`. The shape casts around it change nothing (source
  and target shapes are the same), and a matrix product into a zero accumulator is the bare sum.
-/
import proofs.«163409_j52106543235554_2_alg».proof.Proof.Gen.KernelIdeal.Skeleton
import Idealize.ShloMosaic.Lib.Pipeline.Value
import Idealize.ShloMosaic.Lib.ValueIdx
import Idealize.ShloMosaic.PureOps.Ideal.Laws

noncomputable section

open Idealize.ShloMosaic Idealize.ShloMosaic.ValueIdx
open scoped BigOperators

namespace Cert.KernelIdeal.Payload

open Cert.KernelIdeal Cert.KernelIdeal.Gen

/-- The tile product's dimension record: both operands contract their columns, rows of the left operand index the
    result's rows and rows of the right operand its columns. -/
local notation "D" => dot_S1024x512_S1024x512_S1024x1024_1_1_0_0_n_n

/-- The left operand is read at the result's row. -/
theorem lhs_row (j : S1024x1024.Idx) (k : (D).contr.Idx) : ((D).lhsIdx j k 0).val = (j 0).val := by
  unfold DotDims.lhsIdx
  rw [dif_neg (show ¬(0 : Fin S1024x512.rank) ∈ (D).lhsBatch by decide),
    dif_pos (show (0 : Fin S1024x512.rank) ∈ (D).lhsNonContracting by decide)]
  rfl

/-- The left operand's column is the contraction index. -/
theorem lhs_col (j : S1024x1024.Idx) (k : (D).contr.Idx) : ((D).lhsIdx j k 1).val = (k ⟨0, by decide⟩).val :=
  (D).lhsIdx_val_of_single rfl j k

/-- The right operand is read at the row the result's column names. -/
theorem rhs_row (j : S1024x1024.Idx) (k : (D).contr.Idx) : ((D).rhsIdx j k 0).val = (j 1).val := by
  unfold DotDims.rhsIdx
  rw [dif_neg (show ¬(0 : Fin S1024x512.rank) ∈ (D).rhsBatch by decide),
    dif_pos (show (0 : Fin S1024x512.rank) ∈ (D).rhsNonContracting by decide)]
  rfl

/-- The right operand's column is the contraction index. -/
theorem rhs_col (j : S1024x1024.Idx) (k : (D).contr.Idx) : ((D).rhsIdx j k 1).val = (k ⟨0, by decide⟩).val :=
  (D).rhsIdx_val_of_single rfl j k

/-- The product of two tiles into the zero accumulator, at entry (p, q): the sum over the shared 512 columns. -/
theorem tile_product_apply (a b : FVec Ideal S1024x512 .bf16) (p q : Fin 1024) :
    FloatOps.matmul D none a b (constant S1024x1024 .f32 0x00000000#32) (ix2 p q)
      = ∑ kk : Fin 512, a (ix2 p kk) * b (ix2 q kk) := by
  refine (Ideal.matmul_constant_zero_apply D none a b (ix2 p q)).trans ?_
  rw [← Equiv.sum_comp (contrEquiv1 D 512 rfl rfl).symm]
  refine Finset.sum_congr rfl fun k _ => ?_
  have hk := contrEquiv1_symm_val D 512 rfl rfl k
  have el : (D).lhsIdx (ix2 p q) ((contrEquiv1 D 512 rfl rfl).symm k) = ix2 p k := funext fun x => Fin.ext (by
    match x with
    | ⟨0, _⟩ => exact lhs_row _ _
    | ⟨1, _⟩ => exact (lhs_col _ _).trans hk)
  have er : (D).rhsIdx (ix2 p q) ((contrEquiv1 D 512 rfl rfl).symm k) = ix2 q k := funext fun x => Fin.ext (by
    match x with
    | ⟨0, _⟩ => exact rhs_row _ _
    | ⟨1, _⟩ => exact (rhs_col _ _).trans hk)
  rw [el, er]

/-- The reset value: the zero tile. -/
theorem zero_tile_apply (j : S1024x1024.Idx) : k0_pay1 (F := Ideal) j = 0 := by
  unfold k0_pay1
  rw [shapeCast_self]
  exact Ideal.ofBits_zero_f32

/-- The accumulated value at entry (p, q): what the accumulator held there plus the tile product's entry. -/
theorem accumulate_apply (acc : Vec Ideal S1024x1024 .f32) (a b : Vec Ideal S1024x512 .bf16) (p q : Fin 1024) :
    k0_pay2 (F := Ideal) acc a b (ix2 p q) = acc (ix2 p q) + ∑ kk : Fin 512, a (ix2 p kk) * b (ix2 q kk) := by
  unfold k0_pay2
  rw [shapeCast_self, shapeCast_self, shapeCast_self]
  exact congrArg (acc (ix2 p q) + ·) (tile_product_apply a b p q)

end Cert.KernelIdeal.Payload

end
-- ==== Proof.Blocks.lean ====
/-
  Where the grid's tiles sit in the arrays.

  The grid has 8 x 4 x 8 points, numbered row-major: point `t` is row-tile `t / 32` of the activations, row-tile
  `(t / 8) % 4` of the weights and contraction step `t % 8`. The activation tile read at `t` is rows
  `1024 (t / 32) + p`, columns `512 (t % 8) + kk` of the activation matrix as the region finds it; the weight tile
  is rows `1024 ((t / 8) % 4) + q`, the same columns, of the weight matrix.
-/
import proofs.«163409_j52106543235554_2_alg».proof.Proof.Gen.KernelIdeal.Frame.Runs
import Idealize.ShloMosaic.Lib.Pipeline.Value
import Idealize.ShloMosaic.Lib.ValueIdx

noncomputable section

open Idealize.ShloMosaic Idealize.ShloMosaic.TcCoe Idealize.SL.Sem Idealize.ShloMosaic.ValueIdx

namespace Cert.KernelIdeal.Blocks

open Cert.KernelIdeal Cert.KernelIdeal.Gen

variable {F : FTy → Type} [FloatOps F]
variable (m : (ℓ : Loc nD τ sig) → Buf (Elt F) ℓ)

/-- The three windows' tile indices at grid point `t`, decided over the 256 points. -/
theorem tile_index : ∀ t : Fin cfg0.N,
    win0_0.index t (0 : Fin 2) = t.val / 32 ∧ win0_0.index t (1 : Fin 2) = t.val % 8
    ∧ win0_1.index t (0 : Fin 2) = t.val / 8 % 4 ∧ win0_1.index t (1 : Fin 2) = t.val % 8
    ∧ win0_2.index t (0 : Fin 2) = t.val / 32 ∧ win0_2.index t (1 : Fin 2) = t.val / 8 % 4 :=
  (by decide +kernel : ∀ t : Fin grid0.N, _)

/-- The activation tile at point `t`, entry (p, kk), is the activation matrix at row `r`, column `K`. -/
theorem x_tile_apply (c : Dev nD) (t : Fin cfg0.N) (p : Fin 1024) (kk : Fin 512) (r : Fin 8192) (K : Fin 4096)
    (hr : r.val = t.val / 32 * 1024 + p.val) (hK : K.val = t.val % 8 * 512 + kk.val) :
    (iblk m c 0 t : Vec F S1024x512 .bf16) (ix2 p kk) = (V m c main_v1 : S8192x4096.Idx → Elt F .bf16) (ix2 r K) := by
  obtain ⟨e0, e1, -⟩ := tile_index t
  unfold iblk
  rw [View.read_apply]
  show V m c main_v1 _ = V m c main_v1 _
  refine congrArg _ (funext fun a => Fin.ext ?_)
  match a with
  | ⟨0, _⟩ => show win0_0.index t 0 * 1024 + 1 * p.val = r.val; rw [e0, hr]; omega
  | ⟨1, _⟩ => show win0_0.index t 1 * 512 + 1 * kk.val = K.val; rw [e1, hK]; omega

/-- The weight tile at point `t`, entry (q, kk), is the weight matrix at row `o`, column `K`. -/
theorem w_tile_apply (c : Dev nD) (t : Fin cfg0.N) (q : Fin 1024) (kk : Fin 512) (o : Fin 4096) (K : Fin 4096)
    (ho : o.val = t.val / 8 % 4 * 1024 + q.val) (hK : K.val = t.val % 8 * 512 + kk.val) :
    (iblk m c 1 t : Vec F S1024x512 .bf16) (ix2 q kk) = (V m c main_v5 : S4096x4096.Idx → Elt F .bf16) (ix2 o K) := by
  obtain ⟨-, -, e0, e1, -⟩ := tile_index t
  unfold iblk
  rw [View.read_apply]
  show V m c main_v5 _ = V m c main_v5 _
  refine congrArg _ (funext fun a => Fin.ext ?_)
  match a with
  | ⟨0, _⟩ => show win0_1.index t 0 * 1024 + 1 * q.val = o.val; rw [e0, ho]; omega
  | ⟨1, _⟩ => show win0_1.index t 1 * 512 + 1 * kk.val = K.val; rw [e1, hK]; omega

end Cert.KernelIdeal.Blocks

end
-- ==== Proof.Accum.lean ====
/-
  The accumulator across an output tile's eight contraction steps.

  Point `t` of the grid works on output tile (`t / 32`, `(t / 8) % 4`) at contraction step `k = t % 8`. Write `r`
  for a row of the activation matrix inside the tile's rows and `o` for a row of the weight matrix inside the tile's
  columns. The claim, by induction on the point: after point `t` the accumulator's entry for (`r`, `o`) is the sum of
  the first `512 (k + 1)` products `X r K * W o K`. At step 0 the accumulator is reset, so the entry is zero plus
  the step's 512 products; at a later step it is what the point before left — the first `512 k` products, the tile
  being the same — plus the step's. After step 7 all 4096 products are in, and the last step copies the accumulator
  into the output tile.
-/
import proofs.«163409_j52106543235554_2_alg».proof.Proof.Spec
import proofs.«163409_j52106543235554_2_alg».proof.Proof.Body
import proofs.«163409_j52106543235554_2_alg».proof.Proof.Payload
import proofs.«163409_j52106543235554_2_alg».proof.Proof.Blocks

noncomputable section

open Idealize.ShloMosaic Idealize.ShloMosaic.TcCoe Idealize.SL.Sem Idealize.ShloMosaic.ValueIdx
open scoped BigOperators

namespace Cert.KernelIdeal.Accum

open Cert.KernelIdeal Cert.KernelIdeal.Gen Cert.Spec

variable (m : (ℓ : Loc nD τ sig) → Buf (Elt Ideal) ℓ)

/-- The activation matrix as the region finds it. -/
def Xm (c : Dev nD) : XIdx → EReal := V m c main_v1
/-- The weight matrix as the region finds it. -/
def Wm (c : Dev nD) : WIdx → EReal := V m c main_v5

/-- The products of the two tiles loaded at point `t`, entry by entry along the contraction, are the products of
    contraction step `t % 8` for the rows the tiles' entries sit in. -/
theorem tile_sum (c : Dev nD) (t : Fin cfg0.N) (p q : Fin 1024) (r : Fin 8192) (o : Fin 4096)
    (hr : r.val = t.val / 32 * 1024 + p.val) (ho : o.val = t.val / 8 % 4 * 1024 + q.val)
    (a b : Vec Ideal S1024x512 .bf16) (ha : a = iblk m c 0 t) (hb : b = iblk m c 1 t) :
    ∑ kk : Fin 512, a (ix2 p kk) * b (ix2 q kk)
      = ∑ kk : Fin 512, term (Xm m c) (Wm m c) r o (t.val % 8 * 512 + kk.val) := by
  refine Finset.sum_congr rfl fun kk _ => ?_
  have hlt : t.val % 8 * 512 + kk.val < 4096 := by have := kk.isLt; omega
  rw [term_of_lt _ _ _ _ _ hlt, ha, hb]
  exact congrArg₂ (· * ·) (Blocks.x_tile_apply m c t p kk r ⟨_, hlt⟩ hr rfl)
    (Blocks.w_tile_apply m c t q kk o ⟨_, hlt⟩ ho rfl)

/-- A first step (`t % 8 = 0`): the accumulator is reset, then holds the step's products. -/
theorem acc_first (c : Dev nD) (t : Fin cfg0.N) (h0 : t.val % 8 = 0) (p q : Fin 1024) (r : Fin 8192) (o : Fin 4096)
    (hr : r.val = t.val / 32 * 1024 + p.val) (ho : o.val = t.val / 8 % 4 * 1024 + q.val) :
    (outsAt0 m c t.val t.isLt).2 (ix2 p q) = partialDot (Xm m c) (Wm m c) r o ((t.val % 8 + 1) * 512) := by
  have h1 : ¬t.val % 8 = 7 := by omega
  rw [outsAt0_A m c t h0 h1]
  dsimp only
  refine (congrFun (Body.acc_A (F := Ideal) c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)) (ix2 p q)).trans ?_
  refine (Payload.accumulate_apply _ (iblk m c 0 t) (iblk m c 1 t) p q).trans ?_
  rw [Payload.zero_tile_apply, zero_add, tile_sum m c t p q r o hr ho (iblk m c 0 t) (iblk m c 1 t) rfl rfl, partialDot_step, h0, Nat.zero_mul,
    partialDot_zero, zero_add]

/-- A later step that is not the last: what the point before left, plus the step's products. -/
theorem acc_next (c : Dev nD) (t : Fin cfg0.N) (h0 : ¬t.val % 8 = 0) (p q : Fin 1024) (r : Fin 8192) (o : Fin 4096)
    (hr : r.val = t.val / 32 * 1024 + p.val) (ho : o.val = t.val / 8 % 4 * 1024 + q.val)
    (ih : (outsAt0 m c (t.val - 1) (Nat.lt_of_le_of_lt (Nat.sub_le _ _) t.isLt)).2 (ix2 p q)
      = partialDot (Xm m c) (Wm m c) r o (t.val % 8 * 512)) :
    (outsAt0 m c t.val t.isLt).2 (ix2 p q) = partialDot (Xm m c) (Wm m c) r o ((t.val % 8 + 1) * 512) := by
  by_cases h1 : t.val % 8 = 7
  · rw [outsAt0_C m c t h0 h1]
    dsimp only
    refine (congrFun (Body.acc_C (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2) (ix2 p q)).trans ?_
    refine (Payload.accumulate_apply _ (iblk m c 0 t) (iblk m c 1 t) p q).trans ?_
    rw [ih, tile_sum m c t p q r o hr ho (iblk m c 0 t) (iblk m c 1 t) rfl rfl, partialDot_step]
  · rw [outsAt0_B m c t h0 h1]
    dsimp only
    refine (congrFun (Body.acc_B (F := Ideal) c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2) (ix2 p q)).trans ?_
    refine (Payload.accumulate_apply _ (iblk m c 0 t) (iblk m c 1 t) p q).trans ?_
    rw [ih, tile_sum m c t p q r o hr ho (iblk m c 0 t) (iblk m c 1 t) rfl rfl, partialDot_step]

/-- The last step (`t % 8 = 7`) leaves the same value in the output tile. -/
theorem out_last (c : Dev nD) (t : Fin cfg0.N) (h7 : t.val % 8 = 7) (p q : Fin 1024) (r : Fin 8192) (o : Fin 4096)
    (hr : r.val = t.val / 32 * 1024 + p.val) (ho : o.val = t.val / 8 % 4 * 1024 + q.val)
    (ih : (outsAt0 m c (t.val - 1) (Nat.lt_of_le_of_lt (Nat.sub_le _ _) t.isLt)).2 (ix2 p q)
      = partialDot (Xm m c) (Wm m c) r o (t.val % 8 * 512)) :
    (outsAt0 m c t.val t.isLt).1 (ix2 p q) = partialDot (Xm m c) (Wm m c) r o ((t.val % 8 + 1) * 512) := by
  have h0 : ¬t.val % 8 = 0 := by omega
  rw [outsAt0_C m c t h0 h7]
  dsimp only
  refine (congrFun (Body.out_C (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h7) (iblk m c 0 t) (iblk m c 1 t) (outsAt0 m c (t.val - 1) (Nat.lt_of_le_of_lt (Nat.sub_le _ _) t.isLt)).2) (ix2 p q)).trans ?_
  refine (Payload.accumulate_apply _ (iblk m c 0 t) (iblk m c 1 t) p q).trans ?_
  rw [ih, tile_sum m c t p q r o hr ho (iblk m c 0 t) (iblk m c 1 t) rfl rfl, partialDot_step]

/-- THE INVARIANT: after point `n` the accumulator's entry is the first `512 (n % 8 + 1)` products. -/
theorem acc_eq (c : Dev nD) : ∀ (n : ℕ) (h : n < cfg0.N) (p q : Fin 1024) (r : Fin 8192) (o : Fin 4096),
    r.val = n / 32 * 1024 + p.val → o.val = n / 8 % 4 * 1024 + q.val →
    (outsAt0 m c n h).2 (ix2 p q) = partialDot (Xm m c) (Wm m c) r o ((n % 8 + 1) * 512)
  | 0, h, p, q, r, o, hr, ho => acc_first m c ⟨0, h⟩ rfl p q r o hr ho
  | n + 1, h, p, q, r, o, hr, ho => by
    by_cases h0 : (n + 1) % 8 = 0
    · exact acc_first m c ⟨n + 1, h⟩ h0 p q r o hr ho
    · have ih := acc_eq c n (Nat.lt_of_succ_lt h) p q r o (by omega) (by omega)
      rw [show n % 8 + 1 = (n + 1) % 8 by omega] at ih
      exact acc_next m c ⟨n + 1, h⟩ h0 p q r o hr ho ih

/-- After an output tile's last step the tile's entry is the whole contraction. -/
theorem out_eq (c : Dev nD) (t : Fin cfg0.N) (h7 : t.val % 8 = 7) (p q : Fin 1024) (r : Fin 8192) (o : Fin 4096)
    (hr : r.val = t.val / 32 * 1024 + p.val) (ho : o.val = t.val / 8 % 4 * 1024 + q.val) :
    (outsAt0 m c t.val t.isLt).1 (ix2 p q) = dot (Xm m c) (Wm m c) r o := by
  have ih := acc_eq m c (t.val - 1) (Nat.lt_of_le_of_lt (Nat.sub_le _ _) t.isLt) p q r o (by omega) (by omega)
  rw [show (t.val - 1) % 8 + 1 = t.val % 8 by omega] at ih
  rw [out_last m c t h7 p q r o hr ho ih, h7]
  exact partialDot_full _ _ _ _

end Cert.KernelIdeal.Accum

end
-- ==== Proof.Prefix.lean ====
/-
  The two matrices the region finds, as functions of the program's arguments.

  Before the region the host flattens the activations `x[b, s, k]` to a matrix of 8192 rows (row `2048 b + s`)
  and changes its number format; it converts the integer weights to numbers, scales them by one constant, and changes
  the format of that too. Over the extended reals a change of format is the identity, so the activation matrix is the
  flattened `x` and the weight matrix is the scaled weights.
-/
import proofs.«163409_j52106543235554_2_alg».proof.Proof.Gen.KernelIdeal.Frame.Runs
import Idealize.ShloMosaic.Lib.Pipeline.Value
import Idealize.ShloMosaic.Lib.StableHlo.Run
import Idealize.ShloMosaic.Lib.ValueIdx

noncomputable section

open Idealize.ShloMosaic Idealize.ShloMosaic.TcCoe Idealize.SL.Sem Idealize.ShloMosaic.ValueIdx

namespace Cert.KernelIdeal.Prefix

open Cert.KernelIdeal Cert.KernelIdeal.Gen

/-- The scaled weights: the integer weights as numbers, each times the one scale constant. -/
def scaled {F : FTy → Type} [FloatOps F] (wd : S4096x4096.Idx → BitVec 32) : FVec F S4096x4096 .f32 :=
  mulf (sitofp .f32 wd) (broadcastInDim S4096x4096 ![] bcast_S_S4096x4096 (constant S_ .f32 0x3C010204#32))

section
variable {F : FTy → Type} [FloatOps F]
variable (m : (ℓ : Loc nD τ sig) → Buf (Elt F) ℓ)

/-- The activation matrix the region finds: the flattened argument, its format changed. -/
theorem activations_eq (c : Dev nD) :
    (V m c main_v1 : S8192x4096.Idx → Elt F .bf16)
      = truncf .bf16 (shapeCast S8192x4096 (m ((c : Thread nD τ).loc main_arg0)) shapeCasts_S4x2048x4096_S8192x4096) bitsLt_bf16_f32 := by
  show StableHlo.after hostOps0 (fun b => m (c, b)) (Proc.devRef .tc main_v1) = _
  after_results
  rfl

/-- The weight matrix the region finds: the scaled weights, their format changed. -/
theorem weights_eq (c : Dev nD) :
    (V m c main_v5 : S4096x4096.Idx → Elt F .bf16)
      = truncf .bf16 (scaled (F := F) (m ((c : Thread nD τ).loc main_arg1))) bitsLt_bf16_f32 := by
  show StableHlo.after hostOps0 (fun b => m (c, b)) (Proc.devRef .tc main_v5) = _
  after_results
  rfl

end

section
variable (m : (ℓ : Loc nD τ sig) → Buf (Elt Ideal) ℓ)

/-- Over the extended reals: row `r = 2048 b + s`, column `K` of the activation matrix is `x[b, s, K]`. -/
theorem activations_apply (c : Dev nD) (r : Fin 8192) (K : Fin 4096) (b : Fin 4) (s : Fin 2048)
    (hr : r.val = b.val * 2048 + s.val) :
    (V m c main_v1 : S8192x4096.Idx → EReal) (ix2 r K) = (m ((c : Thread nD τ).loc main_arg0) : S4x2048x4096.Idx → EReal) (ix3 b s K) := by
  rw [activations_eq]
  show shapeCast S8192x4096 (m ((c : Thread nD τ).loc main_arg0)) shapeCasts_S4x2048x4096_S8192x4096 (ix2 r K) = _
  refine shapeCast_apply _ _ (ix2 r K) (ix3 b s K) ?_
  rw [Shape.rowMajor_val_three, Shape.rowMajor_val_two]
  show (b.val * 2048 + s.val) * 4096 + K.val = r.val * 4096 + K.val
  rw [hr]

/-- Over the extended reals the weight matrix is the scaled weights. -/
theorem weights_apply (c : Dev nD) (j : S4096x4096.Idx) :
    (V m c main_v5 : S4096x4096.Idx → EReal) j = scaled (F := Ideal) (m ((c : Thread nD τ).loc main_arg1)) j := by
  rw [weights_eq]
  rfl

end

end Cert.KernelIdeal.Prefix

end
-- ==== Proof.KernelValue.lean ====
/-
  What the kernel's program computes, whole.

  Every output tile is written back once, after its last contraction step, holding for each entry the whole
  contraction; the 8 x 4 tiles of 1024 x 1024 entries fill the 8192 x 4096 product matrix, so after the region that
  matrix holds, at (r, o), the sum over `K` of `X r K * W o K`. The one host operation after the region reshapes it
  to 4 x 2048 x 4096: entry (b, s, o) is the product matrix at row `2048 b + s`.
-/
import proofs.«163409_j52106543235554_2_alg».proof.Proof.Accum
import proofs.«163409_j52106543235554_2_alg».proof.Proof.Prefix

noncomputable section

open Idealize.ShloMosaic Idealize.ShloMosaic.TcCoe Idealize.SL.Sem Idealize.ShloMosaic.ValueIdx
open Idealize.ShloMosaic.Pipeline (Dat)
open scoped BigOperators

namespace Cert.KernelIdeal.Value

open Cert.KernelIdeal Cert.KernelIdeal.Gen Cert.Spec Cert.KernelIdeal.Accum

variable (m : (ℓ : Loc nD τ sig) → Buf (Elt Ideal) ℓ) (ρ : Dev nD → PrngReg)

/-- The product matrix: entry (r, o) is row `r` of the activations against row `o` of the weights. -/
def product (c : Dev nD) : Buf (Elt Ideal) ((c : Thread nD τ).loc main_v6) :=
  fun i => dot (Xm m c) (Wm m c) ⟨(i 0).val, idx2_lt0 i⟩ ⟨(i 1).val, idx2_lt1 i⟩

/-- What a last contraction step writes back is its tile of the product matrix. -/
theorem flushed_eq (c : Dev nD) (t : Fin cfg0.N) (hf : (cfg0.win 2).flush t = true) :
    (dats m 0 c).flushed 2 t = ((cfg0.win 2).blk t).view.read (Elt Ideal) (product m c) := by
  have h7 : t.val % 8 = 7 := (flush0_2 t).mp hf
  have ht : t.val < 256 := lt_of_lt_of_eq t.isLt N_0
  obtain ⟨-, -, -, -, e0, e1⟩ := Blocks.tile_index t
  show (cfg0.win 2).cut (grid0.coords t) ((dats m 0 c).after 2 t) = _
  rw [after0_2]
  funext j
  obtain ⟨p, q, rfl⟩ : ∃ (p q : Fin 1024), j = ix2 p q := ⟨j 0, j 1, eq_ix2 j⟩
  have hp := p.isLt
  have hq := q.isLt
  show (outsAt0 m c t.val t.isLt).1 (ix2 p q) = product m c (((cfg0.win 2).blk t).view.emb (ix2 p q))
  rw [out_eq m c t h7 p q ⟨t.val / 32 * 1024 + p.val, by omega⟩ ⟨t.val / 8 % 4 * 1024 + q.val, by omega⟩ rfl rfl]
  unfold product
  have a0 : t.val / 32 * 1024 + p.val = (((cfg0.win 2).blk t).view.emb (ix2 p q) 0).val := by
    show _ = win0_2.index t 0 * 1024 + 1 * p.val
    rw [e0]; omega
  have a1 : t.val / 8 % 4 * 1024 + q.val = (((cfg0.win 2).blk t).view.emb (ix2 p q) 1).val := by
    show _ = win0_2.index t 1 * 1024 + 1 * q.val
    rw [e1]; omega
  exact congrArg₂ (dot (Xm m c) (Wm m c)) (Fin.ext a0) (Fin.ext a1)

/-- An entry of the product matrix is in point `t`'s output tile iff each coordinate is in the tile's range. -/
theorem mem_tile (t : Fin cfg0.N) (i : S8192x4096.Idx) :
    i ∈ ((cfg0.win 2).blk t).view.set
      ↔ ∀ a : Fin 2, win0_2.index t a * S1024x1024.size a ≤ (i a).val ∧ (i a).val < win0_2.index t a * S1024x1024.size a + S1024x1024.size a := by
  show i ∈ ((View.whole main_v6).slice (win0_2.rect t)).set ↔ _
  rw [View.set_slice_whole, Rect.mem_set_unit]
  exact Iff.rfl

/-- Every entry of the product matrix lies in the tile some last contraction step writes back. -/
theorem cover (i : S8192x4096.Idx) :
    ∃ t : Fin cfg0.N, (cfg0.win 2).flush t = true ∧ i ∈ ((cfg0.win 2).blk t).view.set := by
  have h0 : (i 0).val < 8192 := idx2_lt0 i
  have h1 : (i 1).val < 4096 := idx2_lt1 i
  obtain ⟨tv, htv⟩ : ∃ tv, tv = (i 0).val / 1024 * 32 + (i 1).val / 1024 * 8 + 7 := ⟨_, rfl⟩
  have hN : tv < cfg0.N := by rw [show cfg0.N = 256 from N_0]; omega
  obtain ⟨-, -, -, -, e0, e1⟩ := Blocks.tile_index ⟨tv, hN⟩
  refine ⟨⟨tv, hN⟩, (flush0_2 _).mpr (by show tv % 8 = 7; omega), ?_⟩
  rw [mem_tile]
  intro a
  match a with
  | ⟨0, _⟩ =>
    show win0_2.index ⟨tv, hN⟩ 0 * 1024 ≤ (i 0).val ∧ (i 0).val < win0_2.index ⟨tv, hN⟩ 0 * 1024 + 1024
    rw [e0]; show tv / 32 * 1024 ≤ (i 0).val ∧ (i 0).val < tv / 32 * 1024 + 1024; omega
  | ⟨1, _⟩ =>
    show win0_2.index ⟨tv, hN⟩ 1 * 1024 ≤ (i 1).val ∧ (i 1).val < win0_2.index ⟨tv, hN⟩ 1 * 1024 + 1024
    rw [e1]; show tv / 8 % 4 * 1024 ≤ (i 1).val ∧ (i 1).val < tv / 8 % 4 * 1024 + 1024; omega

/-- After the region the result array of the region holds the product matrix. -/
theorem final (c : Dev nD) : (dats m 0 c).arrAt 2 cfg0.N = product m c :=
  (dats m 0 c).arrAt_eq_of_cover 2 (product m c) (flushed_eq m c) cover

/-- The program's result: the product matrix reshaped to batch x sequence x features. -/
def result (c : Dev nD) : Buf (Elt Ideal) ((c : Thread nD τ).loc main_v7) :=
  shapeCast S4x2048x4096 (product m c) shapeCasts_S8192x4096_S4x2048x4096

/-- The host operation after the region leaves that in the result buffer. -/
theorem tail_eq (c : Dev nD) :
    Pipeline.afterTail₀ cfgs (dats m) 0 (V0 m) [hostOps1] c main_v7 = result m c := by
  unfold Pipeline.afterTail₀
  show StableHlo.after hostOps1 _ (Proc.devRef .tc main_v7) = _
  after_results
  have e : Pipeline.withArrays (cfgs 0).spec c (V0 m c) (fun w => (dats m 0 c).arrAt w (cfgs 0).N) (Proc.tc.devRef main_v6)
      = product m c := (Pipeline.withArrays_arr spec0 launch0.win.arr_inj c _ _ 2).trans (final m c)
  rw [e]
  rfl

/-- The run, read: the result buffer ends at the reshaped product matrix, the arguments unchanged. -/
theorem run : θ_run defs (onTc (τ := τ) (main (F := Ideal))) ⟨m, fun _ => 0, ρ⟩ fun r => ∀ c : Dev nD,
      r.2.mem ((c : Thread nD τ).loc main_v7) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨((h c).2 main_v7 (Pipeline.mem_restRefs_of main_v7 (by decide) (by decide))).trans (tail_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

/-- The result at (b, s, o), from the program's arguments: the contraction of `x[b, s, ·]` with row `o` of the scaled
    weights. -/
theorem result_apply (c : Dev nD) (b : Fin 4) (s : Fin 2048) (o : Fin 4096)
    (x : S4x2048x4096.Idx → EReal) (wd : S4096x4096.Idx → BitVec 32)
    (hx : x = m ((c : Thread nD τ).loc main_arg0)) (hw : wd = m ((c : Thread nD τ).loc main_arg1)) :
    @Eq EReal (result m c (ix3 b s o))
      (∑ K : Fin 4096, x (ix3 b s K) * Prefix.scaled (F := Ideal) wd (ix2 o K)) := by
  subst hx hw
  have hb := b.isLt
  have hs := s.isLt
  unfold result
  rw [shapeCast_apply _ _ (ix3 b s o) (ix2 (⟨b.val * 2048 + s.val, by omega⟩ : Fin 8192) o) (by
    rw [Shape.rowMajor_val_two, Shape.rowMajor_val_three]; rfl)]
  show dot (Xm m c) (Wm m c) ⟨b.val * 2048 + s.val, _⟩ ⟨o.val, _⟩ = _
  unfold dot
  refine Finset.sum_congr rfl fun K _ => ?_
  unfold Xm Wm
  rw [Prefix.activations_apply m c _ K b s rfl, Prefix.weights_apply]

end Cert.KernelIdeal.Value

end
-- ==== Proof.RefValue.lean ====
/-
  What the reference computes, read at one entry.

  The reference scales the integer weights by the same constant and contracts the activations `x[b, s, K]` with the
  scaled weights `w[o, K]` over `K` in one `dot_general`: entry (b, s, o) is the sum over the 4096 values of `K` of
  `x[b, s, K] * w[o, K]`.
-/
import proofs.«163409_j52106543235554_2_alg».proof.Proof.Gen.ReferenceIdeal.Read

noncomputable section

open Idealize.ShloMosaic Idealize.ShloMosaic.ValueIdx
open scoped BigOperators

namespace Cert.ReferenceIdeal.RefValue

open Cert.ReferenceIdeal Cert.ReferenceIdeal.Read

/-- The reference's result at (b, s, o): the contraction over the input features. -/
theorem result_apply (x : (⟨S4x2048x4096, .f32⟩ : BufTy).Contents (Elt Ideal)) (wd : (⟨S4096x4096, .i32⟩ : BufTy).Contents (Elt Ideal))
    (b : Fin 4) (s : Fin 2048) (o : Fin 4096) :
    val_main_v3 (F := Ideal) x wd (ix3 b s o) = ∑ K : Fin 4096, x (ix3 b s K) * val_main_v2 (F := Ideal) wd (ix2 o K) := by
  rw [val_main_v3_apply]
  refine Finset.sum_congr rfl fun K _ => ?_
  have el : lidx_main_v3 (ix3 b s o) K = ix3 b s K := funext fun a => Fin.ext (by
    match a with
    | ⟨0, _⟩ => rfl
    | ⟨1, _⟩ => rfl
    | ⟨2, _⟩ => rfl)
  have er : ridx_main_v3 (ix3 b s o) K = ix2 o K := funext fun a => Fin.ext (by
    match a with
    | ⟨0, _⟩ => rfl
    | ⟨1, _⟩ => rfl)
  rw [el, er]

end Cert.ReferenceIdeal.RefValue

end
-- ==== Proof.lean ====
/-
  A quantized linear layer, `y[b, s, o] = Σ_K x[b, s, K] * (w[o, K] * scale)`, computed two ways.

  The kernel's program flattens `x` to 8192 rows, scales the integer weights, and multiplies tile by tile on a grid
  of 8 x 4 output tiles (1024 x 1024 entries each) times 8 contraction steps of 512 columns: an accumulator is reset
  at a tile's first step, gains the step's partial products at every step, and is written to the output after the
  last; the 8192 x 4096 product matrix is then reshaped to 4 x 2048 x 4096. The reference scales the weights the
  same way and contracts all 4096 columns in one `dot_general`.

  Over the extended reals the two agree entry by entry: changes of number format are the identity, both programs use
  the one scale constant, and a sum of 4096 products taken as eight consecutive blocks of 512, starting from zero, is
  the same sum — addition of extended reals is associative with unit zero, so no product needs to be finite and the
  precondition is never opened.

  The kernel's idealization rewrote nothing, so `preserves` is trivial. The three frames are the generated frame
  runs (the reference's is its generated run with the result dropped).
-/
import proofs.«163409_j52106543235554_2_alg».proof.Defs
import proofs.«163409_j52106543235554_2_alg».proof.Proof.Gen.Kernel
import proofs.«163409_j52106543235554_2_alg».proof.Proof.Gen.Kernel.Skeleton
import proofs.«163409_j52106543235554_2_alg».proof.Proof.Gen.Kernel.Launch
import proofs.«163409_j52106543235554_2_alg».proof.Proof.Gen.Kernel.Points
import proofs.«163409_j52106543235554_2_alg».proof.Proof.Gen.Kernel.Frame
import proofs.«163409_j52106543235554_2_alg».proof.Proof.Gen.KernelIdeal
import proofs.«163409_j52106543235554_2_alg».proof.Proof.Gen.KernelIdeal.Skeleton
import proofs.«163409_j52106543235554_2_alg».proof.Proof.Gen.KernelIdeal.Launch
import proofs.«163409_j52106543235554_2_alg».proof.Proof.Gen.KernelIdeal.Points
import proofs.«163409_j52106543235554_2_alg».proof.Proof.Gen.KernelIdeal.Frame
import proofs.«163409_j52106543235554_2_alg».proof.Proof.Gen.ReferenceIdeal
import proofs.«163409_j52106543235554_2_alg».proof.Proof.Gen.Pre_finite_inputs
import proofs.«163409_j52106543235554_2_alg».proof.Proof.Gen.ReferenceIdeal.Run
import proofs.«163409_j52106543235554_2_alg».proof.Proof.Gen.ReferenceIdeal.Read
import proofs.«163409_j52106543235554_2_alg».proof.Proof.KernelValue
import proofs.«163409_j52106543235554_2_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

/-- Both programs scale the integer weights by the same constant: one function of the weights. -/
theorem weights_same (wd : (⟨Cert.ReferenceIdeal.S4096x4096, .i32⟩ : BufTy).Contents (Elt Ideal)) :
    Cert.ReferenceIdeal.Read.val_main_v2 (F := Ideal) wd = Cert.KernelIdeal.Prefix.scaled (F := Ideal) wd := rfl

/-- The reference's result of the kernel program's arguments is the kernel program's result: at (b, s, o) both are the
    sum over `K` of `x[b, s, K]` times the scaled weight `w[o, K]`. -/
theorem result_same (m : (ℓ : Loc Cert.KernelIdeal.nD Cert.KernelIdeal.τ Cert.KernelIdeal.sig) → Buf (Elt Ideal) ℓ)
    (c : Dev Cert.KernelIdeal.nD) :
    Cert.ReferenceIdeal.Read.val_main_v3 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
      = Cert.KernelIdeal.Value.result m c := by
  funext i
  obtain ⟨b, s, o, rfl⟩ : ∃ (b : Fin 4) (s : Fin 2048) (o : Fin 4096), i = ix3 b s o := ⟨i 0, i 1, i 2, eq_ix3 i⟩
  rw [Cert.ReferenceIdeal.RefValue.result_apply, Cert.KernelIdeal.Value.result_apply m c b s o _ _ rfl rfl, weights_same]

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs run, the kernel's to the reshaped product matrix and the
    reference's to its `dot_general`, which are one function of the arguments (`result_same`). -/
theorem algebraic : Cert.algebraic_KernelIdeal_ReferenceIdeal := by
  intro m ρ m' ρ' _ hagree
  refine ⟨fun c => Cert.KernelIdeal.Value.result m c, Cert.KernelIdeal.Value.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v3_eq _ _).trans (result_same m c)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
